-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel

variable [Facts]

def fn {F : FTy → Type} [FloatOps F] (main_arg0 : FVec F S8x2048x256 .f32) (main_arg1 : FVec F S8x2048x256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x256 .f32 := Host.absf main_arg1
  let main_cst_0 : FVec F S_ .f32 := constant S_ .f32 0x7F800000#32
  let main_v5 : FVec F S8x2048x256 .f32 := broadcastInDim S8x2048x256 ![] bcast_S_S8x2048x256 main_cst_0
  let main_v6 : IVec S8x2048x256 1 := cmpf .olt main_v4 main_v5
  let main_c_1 : IVec S_ 1 := constantI S_ 1 1#1
  let main_v7 : IVec S_ 1 := (fun x v => Host.reduce IntOp.andi x v reducesTo_S8x2048x256_S_d0_1_2 h_S_) main_v6 main_c_1
  let main_v8 : IVec S_ 1 := andi main_v3 main_v7
  main_v8
-- ==== Kernel.lean ====
abbrev S8x2048x256 : Shape := ⟨3, ![8, 2048, 256]⟩
abbrev S8x2048x512 : Shape := ⟨3, ![8, 2048, 512]⟩
abbrev S1x512x256 : Shape := ⟨3, ![1, 512, 256]⟩
abbrev S1x2048x256 : Shape := ⟨3, ![1, 2048, 256]⟩
abbrev S1x512x512 : Shape := ⟨3, ![1, 512, 512]⟩
abbrev S512x256 : Shape := ⟨2, ![512, 256]⟩
abbrev S2048x256 : Shape := ⟨2, ![2048, 256]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x512, .f32⟩
  | .local _ .vmem, ⟨0, _⟩ => ⟨S1x512x256, .f32⟩
  | .local _ .vmem, ⟨1, _⟩ => ⟨S1x512x256, .f32⟩
  | .local _ .vmem, ⟨2, _⟩ => ⟨S1x2048x256, .f32⟩
  | .local _ .vmem, ⟨3, _⟩ => ⟨S1x2048x256, .f32⟩
  | .local _ .vmem, ⟨4, _⟩ => ⟨S1x512x512, .f32⟩
  | .local _ .vmem, ⟨5, _⟩ => ⟨S1x512x512, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  reduces_S512x2048_S512 : S512x2048.Reduces [1] S512
  shapeCasts_S512_S512x1 : S512.ShapeCasts S512x1
  broadcasts_S512x1_S512x2048 : S512x1.Broadcasts S512x2048
  broadcasts_S512x1_S512x256 : S512x1.Broadcasts S512x256
  inb_S1x512x512_S1x512x256_0_0_0 : ∀ a, (![0, 0, 0] : Fin 3 → Nat) a + S1x512x256.size a ≤ S1x512x512.size a
  shapeCasts_S512x256_S1x512x256 : S512x256.ShapeCasts S1x512x256
  inb_S1x512x512_S1x512x256_0_0_256 : ∀ a, (![0, 0, 256] : Fin 3 → Nat) a + S1x512x256.size a ≤ S1x512x512.size a
  dot_S512x256_S2048x256_S512x2048_1_1_0_0_n_n_wf : DotDims.WF S512x256 S2048x256 S512x2048 [1] [1] [0] [0] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x2048x256.size a
  hwx0_0 : ∀ i : grid0.Coords, EltTy.bits .f32 = 32 ∨ (Rect.block (s := S8x2048x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x256.size a
  hwx0_1 : ∀ i : grid0.Coords, EltTy.bits .f32 = 32 ∨ (Rect.block (s := S8x2048x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S8x2048x512.size a
  hwx0_2 : ∀ i : grid0.Coords, EltTy.bits .f32 = 32 ∨ (Rect.block (s := S8x2048x512) S1x512x512.size (cc0_transform_2 i) (hinb0_2 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg1) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩
abbrev S8x2048x512 : Shape := ⟨3, ![8, 2048, 512]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x1x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x1x2048, .f32⟩
  | .hbm, ⟨15, _⟩ => ⟨S8x2048x2048, .f32⟩
  | .hbm, ⟨16, _⟩ => ⟨S8x2048x2048, .f32⟩
  | .hbm, ⟨17, _⟩ => ⟨S8x2048x256, .f32⟩
  | .hbm, ⟨18, _⟩ => ⟨S8x2048x512, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  concatenates_S8x2048x256_S8x2048x256_S8x2048x512_d2 : Shape.Concatenates [S8x2048x256, S8x2048x256] S8x2048x512 2
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_1_1_2_2_0_0_wf : DotDims.WF S8x2048x2048 S8x2048x256 S8x2048x256 [1] [1] [2] [2] [0] [0]

variable [Facts₀]

def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_1_1_2_2_0_0 : DotDims S8x2048x2048 S8x2048x256 S8x2048x256 where
  lhsContracting := [1]
  rhsContracting := [1]
  lhsNonContracting := [2]
  rhsNonContracting := [2]
  lhsBatch := [0]
  rhsBatch := [0]
  wf := dot_S8x2048x2048_S8x2048x256_S8x2048x256_1_1_2_2_0_0_wf

class Facts : Prop extends Facts₀ where

variable [Facts]
-- ==== Proof.LibSoftmax.lean ====
/-
  Real-valued extended reals and the softmax.

  An extended real is FINITE when it is neither infinity.  The finite ones are closed under the exact
  operations a normalised attention layer uses (sum, product, quotient by a nonzero, square root of a
  nonnegative, exponential, maximum), and on them the usual laws of the reals hold.  Two such laws are
  proved here:

  * a common factor moves out of a dot product, ∑ (q d · c) · k d = (∑ q d · k d) · c;
  * the softmax-weighted average computed tile by tile with a running shift — each tile rescaling the
    accumulated numerator and denominator by exp (old shift − new shift) — equals the one-shot softmax
    average with ANY finite shift, because exp (a − b) · exp (b − c) = exp (a − c) and the common factor
    exp (−shift) cancels between numerator and denominator.
-/
import Mathlib
import Idealize.ShloMosaic.PureOps.Ideal

open Idealize.ShloMosaic

namespace Cert.Layer.Softmax

/-- An extended real that is a real number: neither infinity. -/
def IsFin (x : EReal) : Prop := x ≠ ⊥ ∧ x ≠ ⊤

theorem isFin_coe (r : ℝ) : IsFin (r : EReal) := ⟨EReal.coe_ne_bot r, EReal.coe_ne_top r⟩

theorem IsFin.exists_coe {x : EReal} (h : IsFin x) : ∃ r : ℝ, x = (r : EReal) := by
  induction x using EReal.rec with
  | bot => exact absurd rfl h.1
  | top => exact absurd rfl h.2
  | coe r => exact ⟨r, rfl⟩

/-- The coercion of a finite real sum is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isFin_zero : IsFin (0 : EReal) := ⟨EReal.zero_ne_bot, EReal.zero_ne_top⟩

theorem IsFin.add {x y : EReal} (hx : IsFin x) (hy : IsFin y) : IsFin (x + y) := by
  obtain ⟨a, rfl⟩ := hx.exists_coe
  obtain ⟨b, rfl⟩ := hy.exists_coe
  rw [← EReal.coe_add]; exact isFin_coe _

theorem IsFin.sub {x y : EReal} (hx : IsFin x) (hy : IsFin y) : IsFin (x - y) := by
  obtain ⟨a, rfl⟩ := hx.exists_coe
  obtain ⟨b, rfl⟩ := hy.exists_coe
  rw [← EReal.coe_sub]; exact isFin_coe _

theorem IsFin.mul {x y : EReal} (hx : IsFin x) (hy : IsFin y) : IsFin (x * y) := by
  obtain ⟨a, rfl⟩ := hx.exists_coe
  obtain ⟨b, rfl⟩ := hy.exists_coe
  rw [← EReal.coe_mul]; exact isFin_coe _

theorem IsFin.max {x y : EReal} (hx : IsFin x) (hy : IsFin y) : IsFin (max x y) := by
  rcases max_choice x y with h | h <;> rw [h] <;> assumption

theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h _ (Finset.mem_insert_self _ _)).add (ih (fun i hi => h i (Finset.mem_insert_of_mem hi)))

/-- A maximum folded from the bottom over a nonempty finite family of finite values is finite. -/
theorem isFin_fold_max {ι : Type*} [Fintype ι] [Nonempty ι] (f : ι → EReal) (h : ∀ i, IsFin (f i)) :
    IsFin ((Finset.univ : Finset ι).fold max (⊥ : EReal) f) := by
  constructor
  · intro hbot
    have hle : f (Classical.arbitrary ι) ≤ (Finset.univ : Finset ι).fold max (⊥ : EReal) f :=
      (Finset.le_fold_max _).mpr (Or.inr ⟨_, Finset.mem_univ _, le_rfl⟩)
    rw [hbot] at hle
    exact (h _).1 (le_bot_iff.mp hle)
  · have hlt : (Finset.univ : Finset ι).fold max (⊥ : EReal) f < ⊤ :=
      (Finset.fold_max_lt _).mpr ⟨bot_lt_top, fun i _ => lt_top_iff_ne_top.mpr (h i).2⟩
    exact hlt.ne

theorem IsFin.exp {x : EReal} (hx : IsFin x) : IsFin (Ideal.exp x) := by
  obtain ⟨a, rfl⟩ := hx.exists_coe
  rw [Ideal.exp_coe]; exact isFin_coe _

theorem exp_pos_of_isFin {x : EReal} (hx : IsFin x) : 0 < Ideal.exp x := by
  obtain ⟨a, rfl⟩ := hx.exists_coe
  rw [Ideal.exp_coe]; exact EReal.coe_pos.mpr (Real.exp_pos a)

/-- The quotient of finite values by a nonzero finite value is finite. -/
theorem IsFin.div {x y : EReal} (hx : IsFin x) (hy : IsFin y) (h0 : y ≠ 0) : IsFin (Ideal.div x y) := by
  obtain ⟨a, rfl⟩ := hx.exists_coe
  obtain ⟨b, rfl⟩ := hy.exists_coe
  have hb : b ≠ 0 := by
    intro hb; apply h0; rw [hb]; rfl
  rw [Ideal.div_coe hb, ← EReal.coe_mul]; exact isFin_coe _

theorem IsFin.sqrt {x : EReal} (hx : IsFin x) (h0 : 0 ≤ x) : IsFin (Ideal.sqrt x) := by
  obtain ⟨a, rfl⟩ := hx.exists_coe
  have ha : 0 ≤ a := EReal.coe_nonneg.mp h0
  rw [Ideal.sqrt_coe, if_neg (not_lt.mpr ha)]; exact isFin_coe _

theorem sqrt_pos_of_pos {x : EReal} (hx : IsFin x) (h0 : 0 < x) : 0 < Ideal.sqrt x := by
  obtain ⟨a, rfl⟩ := hx.exists_coe
  have ha : 0 < a := EReal.coe_pos.mp h0
  rw [Ideal.sqrt_coe, if_neg (not_lt.mpr ha.le)]
  exact EReal.coe_pos.mpr (Real.sqrt_pos.mpr ha)

theorem mul_self_nonneg_of_isFin {x : EReal} (hx : IsFin x) : 0 ≤ x * x := by
  obtain ⟨a, rfl⟩ := hx.exists_coe
  rw [← EReal.coe_mul]; exact EReal.coe_nonneg.mpr (mul_self_nonneg a)

/-- A sum of nonnegative extended reals is nonnegative. -/
theorem sum_nonneg' {ι : Type*} (s : Finset ι) (f : ι → EReal) (h : ∀ i ∈ s, 0 ≤ f i) : 0 ≤ ∑ i ∈ s, f i :=
  Finset.sum_nonneg h

/-- A sum over a nonempty finite type of positive finite values is positive (hence nonzero). -/
theorem sum_pos' {ι : Type*} [Fintype ι] [Nonempty ι] (f : ι → EReal) (h : ∀ i, 0 < f i) : 0 < ∑ i, f i := by
  classical
  rw [← Finset.add_sum_erase Finset.univ f (Finset.mem_univ (Classical.arbitrary ι))]
  exact add_pos_of_pos_of_nonneg (h _) (Finset.sum_nonneg (fun i _ => (h i).le))

/-- A common finite factor moves out of a dot product of finite vectors. -/
theorem sum_mul_scale {ι : Type*} [Fintype ι] (q k : ι → EReal) (c : EReal)
    (hq : ∀ d, IsFin (q d)) (hk : ∀ d, IsFin (k d)) (hc : IsFin c) :
    ∑ d, (q d * c) * k d = (∑ d, q d * k d) * c := by
  choose q' hq' using fun d => (hq d).exists_coe
  choose k' hk' using fun d => (hk d).exists_coe
  obtain ⟨c', rfl⟩ := hc.exists_coe
  simp only [hq', hk', ← EReal.coe_mul, ← coe_sum]
  congr 1
  rw [Finset.sum_mul]
  exact Finset.sum_congr rfl (fun d _ => by ring)

/-- One tile of the running denominator, over the reals: rescaling `P / exp m` by `exp (m - m')` and adding
    the new tile's shifted exponentials gives `(P + new tile) / exp m'`. -/
private theorem den_step {ι : Type*} [Fintype ι] (f : ι → ℝ) (m m' P : ℝ) :
    Ideal.exp ((m : EReal) - (m' : EReal)) * ((P / Real.exp m : ℝ) : EReal)
        + ∑ j, Ideal.exp ((f j : EReal) - (m' : EReal))
      = (((P + ∑ j, Real.exp (f j)) / Real.exp m' : ℝ) : EReal) := by
  simp only [← EReal.coe_sub, Ideal.exp_coe, ← coe_sum, ← EReal.coe_mul, ← EReal.coe_add]
  congr 1
  simp only [Real.exp_sub]
  rw [← Finset.sum_div]
  have h1 := Real.exp_ne_zero m
  have h2 := Real.exp_ne_zero m'
  field_simp

/-- One tile of the running numerator, over the reals. -/
private theorem num_step {ι : Type*} [Fintype ι] (f g : ι → ℝ) (m m' P : ℝ) :
    Ideal.exp ((m : EReal) - (m' : EReal)) * ((P / Real.exp m : ℝ) : EReal)
        + ∑ j, Ideal.exp ((f j : EReal) - (m' : EReal)) * (g j : EReal)
      = (((P + ∑ j, Real.exp (f j) * g j) / Real.exp m' : ℝ) : EReal) := by
  simp only [← EReal.coe_sub, Ideal.exp_coe, ← coe_sum, ← EReal.coe_mul, ← EReal.coe_add]
  congr 1
  simp only [Real.exp_sub]
  have hs : ∑ j, Real.exp (f j) / Real.exp m' * g j = (∑ j, Real.exp (f j) * g j) / Real.exp m' := by
    rw [Finset.sum_div]
    exact Finset.sum_congr rfl (fun j _ => by ring)
  rw [hs]
  have h1 := Real.exp_ne_zero m
  have h2 := Real.exp_ne_zero m'
  field_simp

/-- The cancellation of the common shift factors, over the reals. -/
private theorem real_final {ι : Type*} [Fintype ι] [Nonempty ι] (S V : Fin 4 → ι → ℝ) (μ4 μ : ℝ) :
    (∑ k, ∑ j, Real.exp (S k j) * V k j) / Real.exp μ4
        * (1 / ((∑ k, ∑ j, Real.exp (S k j)) / Real.exp μ4))
      = ∑ k, ∑ j, Real.exp (S k j - μ) * (1 / ∑ k', ∑ j', Real.exp (S k' j' - μ)) * V k j := by
  have hT : 0 < ∑ k, ∑ j, Real.exp (S k j) :=
    Finset.sum_pos (fun k _ => Finset.sum_pos (fun j _ => Real.exp_pos _) Finset.univ_nonempty)
      Finset.univ_nonempty
  have hZ : ∑ k', ∑ j', Real.exp (S k' j' - μ) = (∑ k, ∑ j, Real.exp (S k j)) / Real.exp μ := by
    simp only [Real.exp_sub, Finset.sum_div]
  rw [hZ]
  have hterm : ∀ k j, Real.exp (S k j - μ) * (1 / ((∑ k, ∑ j, Real.exp (S k j)) / Real.exp μ)) * V k j
      = Real.exp (S k j) * V k j * (1 / (∑ k, ∑ j, Real.exp (S k j))) := by
    intro k j
    rw [Real.exp_sub]
    have h1 := Real.exp_ne_zero μ
    have h2 := hT.ne'
    field_simp
  simp only [hterm, ← Finset.sum_mul]
  have h1 := Real.exp_ne_zero μ4
  have h2 := hT.ne'
  field_simp

/-- THE TILED SOFTMAX AVERAGE.  Scores `s` and values `v` over four tiles of a finite nonempty index type;
    `m1 … m4` the shifts after each tile and `M` the one-shot shift, all finite (their values do not matter);
    `α·`, `l·`, `a·` the rescaling factors, denominators and numerators exactly as the tiled recurrence
    computes them, started from the shift `⊥`, denominator `0` and numerator `0`.  Then the tiled quotient is
    the one-shot weighted sum over all entries (indexed by any type `α` in bijection with tile × position). -/
theorem tiled_softmax_avg {ι α : Type*} [Fintype ι] [Nonempty ι] [Fintype α] (e : α ≃ Fin 4 × ι)
    (s v : Fin 4 → ι → EReal) (hs : ∀ k j, IsFin (s k j)) (hv : ∀ k j, IsFin (v k j))
    (m1 m2 m3 m4 M : EReal) (h1 : IsFin m1) (h2 : IsFin m2) (h3 : IsFin m3) (h4 : IsFin m4) (hM : IsFin M)
    (α0 α1 α2 α3 l1 l2 l3 l4 a1 a2 a3 a4 : EReal)
    (hα0 : α0 = Ideal.exp (⊥ - m1))
    (hl1 : l1 = α0 * 0 + ∑ j, Ideal.exp (s 0 j - m1))
    (ha1 : a1 = α0 * 0 + ∑ j, Ideal.exp (s 0 j - m1) * v 0 j)
    (hα1 : α1 = Ideal.exp (m1 - m2))
    (hl2 : l2 = α1 * l1 + ∑ j, Ideal.exp (s 1 j - m2))
    (ha2 : a2 = α1 * a1 + ∑ j, Ideal.exp (s 1 j - m2) * v 1 j)
    (hα2 : α2 = Ideal.exp (m2 - m3))
    (hl3 : l3 = α2 * l2 + ∑ j, Ideal.exp (s 2 j - m3))
    (ha3 : a3 = α2 * a2 + ∑ j, Ideal.exp (s 2 j - m3) * v 2 j)
    (hα3 : α3 = Ideal.exp (m3 - m4))
    (hl4 : l4 = α3 * l3 + ∑ j, Ideal.exp (s 3 j - m4))
    (ha4 : a4 = α3 * a3 + ∑ j, Ideal.exp (s 3 j - m4) * v 3 j) :
    Ideal.div a4 l4
      = ∑ x : α, Ideal.div (Ideal.exp (s (e x).1 (e x).2 - M)) (∑ y : α, Ideal.exp (s (e y).1 (e y).2 - M))
          * v (e x).1 (e x).2 := by
  classical
  -- real witnesses of every finite quantity
  choose S hS using fun k j => (hs k j).exists_coe
  choose V hV using fun k j => (hv k j).exists_coe
  obtain ⟨μ1, rfl⟩ := h1.exists_coe
  obtain ⟨μ2, rfl⟩ := h2.exists_coe
  obtain ⟨μ3, rfl⟩ := h3.exists_coe
  obtain ⟨μ4, rfl⟩ := h4.exists_coe
  obtain ⟨μ, rfl⟩ := hM.exists_coe
  -- the first rescaling factor is exp ⊥ = 0
  have hα0' : α0 = 0 := by rw [hα0, EReal.bot_sub, Ideal.exp_bot]
  -- the running denominators: after tile k, (sum of the exponentials so far) / exp (shift k)
  have hL1 : l1 = (((∑ j, Real.exp (S 0 j)) / Real.exp μ1 : ℝ) : EReal) := by
    rw [hl1, hα0', zero_mul, zero_add]
    simp only [hS, ← EReal.coe_sub, Ideal.exp_coe, ← coe_sum]
    congr 1
    simp only [Real.exp_sub, Finset.sum_div]
  have hL2 : l2 = ((((∑ j, Real.exp (S 0 j)) + ∑ j, Real.exp (S 1 j)) / Real.exp μ2 : ℝ) : EReal) := by
    rw [hl2, hα1, hL1]; simp only [hS]; exact den_step (S 1) μ1 μ2 _
  have hL3 : l3 = (((((∑ j, Real.exp (S 0 j)) + ∑ j, Real.exp (S 1 j)) + ∑ j, Real.exp (S 2 j))
      / Real.exp μ3 : ℝ) : EReal) := by
    rw [hl3, hα2, hL2]; simp only [hS]; exact den_step (S 2) μ2 μ3 _
  have hL4 : l4 = ((((((∑ j, Real.exp (S 0 j)) + ∑ j, Real.exp (S 1 j)) + ∑ j, Real.exp (S 2 j))
      + ∑ j, Real.exp (S 3 j)) / Real.exp μ4 : ℝ) : EReal) := by
    rw [hl4, hα3, hL3]; simp only [hS]; exact den_step (S 3) μ3 μ4 _
  -- the running numerators
  have hA1 : a1 = (((∑ j, Real.exp (S 0 j) * V 0 j) / Real.exp μ1 : ℝ) : EReal) := by
    rw [ha1, hα0', zero_mul, zero_add]
    simp only [hS, hV, ← EReal.coe_sub, Ideal.exp_coe, ← EReal.coe_mul, ← coe_sum]
    congr 1
    simp only [Real.exp_sub]
    rw [Finset.sum_div]
    exact Finset.sum_congr rfl (fun j _ => by ring)
  have hA2 : a2 = ((((∑ j, Real.exp (S 0 j) * V 0 j) + ∑ j, Real.exp (S 1 j) * V 1 j)
      / Real.exp μ2 : ℝ) : EReal) := by
    rw [ha2, hα1, hA1]; simp only [hS, hV]; exact num_step (S 1) (V 1) μ1 μ2 _
  have hA3 : a3 = (((((∑ j, Real.exp (S 0 j) * V 0 j) + ∑ j, Real.exp (S 1 j) * V 1 j)
      + ∑ j, Real.exp (S 2 j) * V 2 j) / Real.exp μ3 : ℝ) : EReal) := by
    rw [ha3, hα2, hA2]; simp only [hS, hV]; exact num_step (S 2) (V 2) μ2 μ3 _
  have hA4 : a4 = ((((((∑ j, Real.exp (S 0 j) * V 0 j) + ∑ j, Real.exp (S 1 j) * V 1 j)
      + ∑ j, Real.exp (S 2 j) * V 2 j) + ∑ j, Real.exp (S 3 j) * V 3 j) / Real.exp μ4 : ℝ) : EReal) := by
    rw [ha4, hα3, hA3]; simp only [hS, hV]; exact num_step (S 3) (V 3) μ3 μ4 _
  -- sums over α are sums over tile × position
  have hsumα : ∀ g : Fin 4 → ι → ℝ, ∑ x : α, g (e x).1 (e x).2 = ∑ k, ∑ j, g k j := fun g =>
    (Equiv.sum_comp e (fun p : Fin 4 × ι => g p.1 p.2)).trans (Fintype.sum_prod_type _)
  have hZα : ∑ y : α, Real.exp (S (e y).1 (e y).2 - μ) = ∑ k, ∑ j, Real.exp (S k j - μ) :=
    hsumα (fun k j => Real.exp (S k j - μ))
  have hZpos : 0 < ∑ k : Fin 4, ∑ j, Real.exp (S k j - μ) :=
    Finset.sum_pos (fun k _ => Finset.sum_pos (fun j _ => Real.exp_pos _) Finset.univ_nonempty)
      Finset.univ_nonempty
  have hTpos : 0 < ∑ k : Fin 4, ∑ j, Real.exp (S k j) :=
    Finset.sum_pos (fun k _ => Finset.sum_pos (fun j _ => Real.exp_pos _) Finset.univ_nonempty)
      Finset.univ_nonempty
  -- the one-shot denominator is a positive real
  have hden : (∑ y : α, Ideal.exp (s (e y).1 (e y).2 - (μ : EReal)))
      = ((∑ k, ∑ j, Real.exp (S k j - μ) : ℝ) : EReal) := by
    simp only [hS, ← EReal.coe_sub, Ideal.exp_coe, ← coe_sum]
    rw [hZα]
  -- the tiled sums written over the tile index
  have hT4 : (((∑ j, Real.exp (S 0 j)) + ∑ j, Real.exp (S 1 j)) + ∑ j, Real.exp (S 2 j))
      + ∑ j, Real.exp (S 3 j) = ∑ k, ∑ j, Real.exp (S k j) :=
    (Fin.sum_univ_four (fun k => ∑ j, Real.exp (S k j))).symm
  have hU4 : (((∑ j, Real.exp (S 0 j) * V 0 j) + ∑ j, Real.exp (S 1 j) * V 1 j)
      + ∑ j, Real.exp (S 2 j) * V 2 j) + ∑ j, Real.exp (S 3 j) * V 3 j
      = ∑ k, ∑ j, Real.exp (S k j) * V k j :=
    (Fin.sum_univ_four (fun k => ∑ j, Real.exp (S k j) * V k j)).symm
  have hL4ne : (∑ k : Fin 4, ∑ j, Real.exp (S k j)) / Real.exp μ4 ≠ 0 :=
    (div_pos hTpos (Real.exp_pos _)).ne'
  rw [hL4, hA4, hT4, hU4, hden, Ideal.div_coe hL4ne]
  simp only [Ideal.div_coe hZpos.ne', hS, hV, ← EReal.coe_sub, Ideal.exp_coe, ← EReal.coe_mul, ← coe_sum]
  congr 1
  rw [real_final S V μ4 μ]
  exact (hsumα (fun k j => Real.exp (S k j - μ) * (1 / ∑ k', ∑ j', Real.exp (S k' j' - μ)) * V k j)).symm

end Cert.Layer.Softmax
-- ==== Proof.Attention.lean ====
/-
  Dot-product attention over one row of queries, on the extended reals.

  For a family of scores `s e` (e ranging over a finite nonempty set of keys) the softmax weight of key `e` is
  `exp (s e - top s)`, where `top s` is the largest score, and the total weight `mass s` is the sum of the
  weights.  A softmax-weighted average of values `v e` can be taken in two ways:

  * sum the weighted values first and divide the total by the mass, `(∑ e, w e * v e) / mass`;
  * normalise every weight first and sum, `∑ e, (w e / mass) * v e`.

  On the reals these agree because division by a nonzero number distributes over a finite sum.  On the extended
  reals that law fails at the infinities, so it is proved here for FINITE scores and values: then the largest
  score is finite, every weight is a positive real, the mass is a positive real (hence nonzero), and the quotient
  by it is the product with its reciprocal, a finite common factor that moves out of the sum.
-/
import Mathlib
import Idealize.ShloMosaic.PureOps.Ideal
import Idealize.ShloMosaic.PureOps.Ideal.Laws
import proofs.«164547_j48790828482616_2_alg».proof.Proof.LibSoftmax

noncomputable section

open scoped BigOperators

namespace Cert.Attn

open Idealize.ShloMosaic Cert.Layer.Softmax

/-- The binary32 word of minus infinity denotes the bottom of the extended reals. -/
theorem ofBits_neg_inf : Ideal.ofBits .f32 0xFF800000#32 = (⊥ : EReal) := by
  simp [Ideal.ofBits, Ideal.ieee]

section Average

variable {E : Type} [Fintype E]

/-- The largest score: the maximum folded from minus infinity. -/
def top (s : E → EReal) : EReal := (Finset.univ : Finset E).fold max (⊥ : EReal) s

/-- The unnormalised softmax weight of key `e`. -/
def weight (s : E → EReal) (e : E) : EReal := Ideal.exp (s e - top s)

/-- The total weight. -/
def mass (s : E → EReal) : EReal := ∑ e, weight s e

/-- The weighted sum of the values divided by the total weight. -/
def avg (s v : E → EReal) : EReal := Ideal.div (∑ e, weight s e * v e) (mass s)

/-- The sum of the values against the normalised weights. -/
def avgNormalised (s v : E → EReal) : EReal := ∑ e, Ideal.div (weight s e) (mass s) * v e

variable [Nonempty E]

theorem isFin_top (s : E → EReal) (hs : ∀ e, IsFin (s e)) : IsFin (top s) := isFin_fold_max s hs

theorem isFin_weight (s : E → EReal) (hs : ∀ e, IsFin (s e)) (e : E) : IsFin (weight s e) :=
  ((hs e).sub (isFin_top s hs)).exp

theorem weight_pos (s : E → EReal) (hs : ∀ e, IsFin (s e)) (e : E) : 0 < weight s e :=
  exp_pos_of_isFin ((hs e).sub (isFin_top s hs))

theorem isFin_mass (s : E → EReal) (hs : ∀ e, IsFin (s e)) : IsFin (mass s) :=
  isFin_sum _ _ fun e _ => isFin_weight s hs e

theorem mass_pos (s : E → EReal) (hs : ∀ e, IsFin (s e)) : 0 < mass s :=
  sum_pos' _ (weight_pos s hs)

/-- Dividing the weighted sum by the mass is summing against the normalised weights, for finite scores and
    values: the quotient by the positive real mass is the product with its reciprocal, and that finite factor
    moves out of the sum. -/
theorem avg_eq_avgNormalised (s v : E → EReal) (hs : ∀ e, IsFin (s e)) (hv : ∀ e, IsFin (v e)) :
    avg s v = avgNormalised s v := by
  obtain ⟨M, hM⟩ := (isFin_mass s hs).exists_coe
  have hM0 : M ≠ 0 := by
    intro h0
    have hp := mass_pos s hs
    rw [hM, h0] at hp
    exact lt_irrefl _ hp
  unfold avg avgNormalised
  rw [hM]
  simp only [Ideal.div_coe hM0]
  exact (sum_mul_scale (weight s) v _ (isFin_weight s hs) hv (isFin_coe _)).symm

end Average

/-- A dot product of finite vectors is finite. -/
theorem isFin_dot {D : Type} [Fintype D] (q k : D → EReal) (hq : ∀ d, IsFin (q d)) (hk : ∀ d, IsFin (k d)) :
    IsFin (∑ d, q d * k d) :=
  isFin_sum _ _ fun d _ => (hq d).mul (hk d)

end Cert.Attn

end
-- ==== Proof.Spec.lean ====
/-
  The attention layer as ONE function of its two argument arrays.

  The arguments are `enc` (keys and values: 8 batches × 2048 positions × 256 features) and `dec` (queries, same
  shape).  Output row (b, t) has 512 entries: the first 256 are the query row `dec[b, t, ·]` itself, and entry
  256 + c is the softmax-weighted average over key positions e of `enc[b, e, c]`, the score of position e being the
  dot product of the query row with key row `enc[b, e, ·]`.
  A row depends only on its own query row and on the batch's 2048 key rows, so it is stated over those
  (`row`); `result` reads them off the arrays.  `rowNormalised` is the same row with every weight divided by the
  total weight before summing and with the factors of each score product in the other order; for finite entries
  the two agree.
-/
import Idealize.ShloMosaic.Lib.ValueIdx
import proofs.«164547_j48790828482616_2_alg».proof.Proof.Attention

noncomputable section

open scoped BigOperators

namespace Cert.Attn

open Idealize.ShloMosaic Idealize.ShloMosaic.ValueIdx Cert.Layer.Softmax

/-- The shape of either argument array. -/
abbrev SArg : Shape := ⟨3, ![8, 2048, 256]⟩
/-- The shape of the result. -/
abbrev SRes : Shape := ⟨3, ![8, 2048, 512]⟩

/-- The score of key position `e`: the dot product of the query row with that key row. -/
def scores (q : Fin 256 → EReal) (K : Fin 2048 → Fin 256 → EReal) (e : Fin 2048) : EReal := ∑ d, q d * K e d

/-- The same dot product with the key's entry as the left factor. -/
def scoresKeyFirst (q : Fin 256 → EReal) (K : Fin 2048 → Fin 256 → EReal) (e : Fin 2048) : EReal :=
  ∑ d, K e d * q d

theorem scoresKeyFirst_eq (q : Fin 256 → EReal) (K : Fin 2048 → Fin 256 → EReal) :
    scoresKeyFirst q K = scores q K :=
  funext fun e => Finset.sum_congr rfl fun d _ => mul_comm _ _

/-- One output row: the query row, then the weighted averages of the value columns (the weighted sum divided
    by the total weight). -/
def row (q : Fin 256 → EReal) (K : Fin 2048 → Fin 256 → EReal) (c : Fin 512) : EReal :=
  if h : c.val < 256 then q ⟨c.val, h⟩
  else avg (scores q K) (fun e => K e ⟨c.val - 256, by have := c.isLt; omega⟩)

/-- The same row with the weights normalised before the sum. -/
def rowNormalised (q : Fin 256 → EReal) (K : Fin 2048 → Fin 256 → EReal) (c : Fin 512) : EReal :=
  if h : c.val < 256 then q ⟨c.val, h⟩
  else avgNormalised (scoresKeyFirst q K) (fun e => K e ⟨c.val - 256, by have := c.isLt; omega⟩)

/-- For finite queries and keys the two rows agree: the scores are finite dot products, so the quotient by the
    total weight distributes over the weighted sum. -/
theorem row_eq_rowNormalised (q : Fin 256 → EReal) (K : Fin 2048 → Fin 256 → EReal)
    (hq : ∀ d, IsFin (q d)) (hK : ∀ e d, IsFin (K e d)) (c : Fin 512) :
    row q K c = rowNormalised q K c := by
  unfold row rowNormalised
  split
  · rfl
  · rw [scoresKeyFirst_eq]
    exact avg_eq_avgNormalised _ _ (fun e => isFin_dot _ _ hq (hK e)) (fun e => hK e _)

/-- An entry of the left half of a row is the query's entry. -/
theorem row_left (q : Fin 256 → EReal) (K : Fin 2048 → Fin 256 → EReal) (c : Fin 512) (c' : Fin 256)
    (h : c.val = c'.val) : row q K c = q c' := by
  have hc := c'.isLt
  unfold row
  rw [dif_pos (show c.val < 256 by omega)]
  exact congrArg q (Fin.ext h)

/-- An entry of the right half of a row is the weighted average of one value column. -/
theorem row_right (q : Fin 256 → EReal) (K : Fin 2048 → Fin 256 → EReal) (c : Fin 512) (c' : Fin 256)
    (h : c.val = 256 + c'.val) : row q K c = avg (scores q K) (fun e => K e c') := by
  unfold row
  rw [dif_neg (show ¬ c.val < 256 by omega)]
  refine congrArg (avg (scores q K)) (funext fun e => congrArg (K e) (Fin.ext ?_))
  show c.val - 256 = c'.val
  omega

/-- Entry (b, t, c) of the result, by coordinates. -/
def resultAt (enc dec : SArg.Idx → EReal) (b : Fin 8) (t : Fin 2048) (c : Fin 512) : EReal :=
  row (fun d => dec (ix3 b t d)) (fun e d => enc (ix3 b e d)) c

/-- The whole result array. -/
def result (enc dec : SArg.Idx → EReal) : SRes.Idx → EReal := fun i => resultAt enc dec (i 0) (i 1) (i 2)

theorem result_ix3 (enc dec : SArg.Idx → EReal) (b : Fin 8) (t : Fin 2048) (c : Fin 512) :
    result enc dec (ix3 b t c) = resultAt enc dec b t c := rfl

end Cert.Attn

end
-- ==== Proof.LibMatmul.lean ====
/-
  A plain matrix product's contraction as a sum over the shared axis.

  For dimension numbers that contract the left operand's axis 1 with the right operand's axis 0, with no batch axis
  (rows × shared axis times shared axis × columns), the contraction index is one coordinate `k` below the shared
  extent; the left factor of the product at the output index (r, c) is the left operand at (r, k) and the right factor
  the right operand at (k, c).  So the sum over the contraction index is `∑ k, l (r, k) * r' (k, c)`.
  Both a matrix unit's product into a zero accumulator and a host `dot_general` are, on the extended reals, that sum
  over their own dimension numbers; this file reads both as the same `Fin`-indexed sum.
-/
import Idealize.ShloMosaic.Lib.ValueIdx
import Idealize.ShloMosaic.PureOps.Ideal.Laws

noncomputable section

open scoped BigOperators

namespace Cert.Layer.Matmul

open Idealize.ShloMosaic Idealize.ShloMosaic.ValueIdx

/-- The sum over a plain product's contraction index is the sum over the shared axis' coordinate of the left operand
    at (row, k) times the right operand at (k, column). -/
theorem plain_contr_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (n0 := M) (n1 := K) (j 0) k) * r (ix2 (n0 := K) (n1 := N) k (j 1)) := by
  obtain ⟨lc, rc, ln, rn, lb, rb, wf⟩ := d
  dsimp only at hlc hrc hln hrn hlb hrb
  subst hlc hrc hln hrn hlb hrb
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  have hlc : D.lhsContracting = [1] := by subst hD; rfl
  have hrc : D.rhsContracting = [0] := by subst hD; rfl
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (n0 := M) (n1 := K) (j 0) k := funext fun a => Fin.ext (by
    match a with
    | ⟨0, _⟩ =>
      subst hD
      show (DotDims.lhsIdx _ j _ ⟨0, _⟩).val = (j 0).val
      unfold DotDims.lhsIdx
      split
      · rename_i hb; exact absurd hb List.not_mem_nil
      · split
        · rfl
        · rename_i hn; exact absurd (List.mem_singleton.mpr rfl) hn
    | ⟨1, _⟩ => exact (D.lhsIdx_val_of_single hlc j _).trans hk)
  have er : D.rhsIdx j ((contrEquiv1 D K hr hs).symm k) = ix2 (n0 := K) (n1 := N) k (j 1) := funext fun a => Fin.ext (by
    match a with
    | ⟨0, _⟩ => exact (D.rhsIdx_val_of_single hrc j _).trans hk
    | ⟨1, _⟩ =>
      subst hD
      show (DotDims.rhsIdx _ j _ ⟨1, _⟩).val = (j 1).val
      unfold DotDims.rhsIdx
      split
      · rename_i hb; exact absurd hb List.not_mem_nil
      · split
        · rfl
        · rename_i hn; exact absurd (List.mem_singleton.mpr rfl) hn)
  exact congrArg₂ (· * ·) (congrArg l el) (congrArg r er)

end Cert.Layer.Matmul

end
-- ==== Proof.LibMatmulNT.lean ====
/-
  A matrix product against a TRANSPOSED right operand: the contraction as a sum over the shared axis.

  For dimension numbers that contract axis 1 of the left operand with axis 1 of the right operand, with no batch axis
  (rows × shared axis times columns × shared axis: every output entry (r, c) is the dot product of row r of the left
  operand with row c of the right one), the contraction index is one coordinate `k` below the shared extent; the left
  factor at the output index (r, c) is the left operand at (r, k) and the right factor the right operand at (c, k).  So
  the sum over the contraction index is `∑ k, l (r, k) * r' (c, k)`.
-/
import Idealize.ShloMosaic.Lib.ValueIdx
import Idealize.ShloMosaic.PureOps.Ideal.Laws

noncomputable section

open scoped BigOperators

namespace Cert.Layer.MatmulNT

open Idealize.ShloMosaic Idealize.ShloMosaic.ValueIdx

/-- The sum over the contraction index of a product against a transposed right operand is the sum over the shared
    axis' coordinate of the left operand at (row, k) times the right operand at (column, k). -/
theorem transposed_contr_sum {M K N : Nat} (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k)
      = ∑ k : Fin K, l (ix2 (n0 := M) (n1 := K) (j 0) k) * r (ix2 (n0 := N) (n1 := K) (j 1) k) := by
  obtain ⟨lc, rc, ln, rn, lb, rb, wf⟩ := d
  dsimp only at hlc hrc hln hrn hlb hrb
  subst hlc hrc hln hrn hlb hrb
  generalize hD : (⟨[1], [1], [0], [0], [], [], wf⟩ : DotDims ⟨2, ![M, K]⟩ ⟨2, ![N, K]⟩ ⟨2, ![M, N]⟩) = D
  have hr : D.contr.rank = 1 := by subst hD; rfl
  have hs : D.contr.size ⟨0, by omega⟩ = K := by subst hD; rfl
  have hlc : D.lhsContracting = [1] := by subst hD; rfl
  have hrc : D.rhsContracting = [1] := by subst hD; rfl
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (n0 := M) (n1 := K) (j 0) k := funext fun a => Fin.ext (by
    match a with
    | ⟨0, _⟩ =>
      subst hD
      show (DotDims.lhsIdx _ j _ ⟨0, _⟩).val = (j 0).val
      unfold DotDims.lhsIdx
      split
      · rename_i hb; exact absurd hb List.not_mem_nil
      · split
        · rfl
        · rename_i hn; exact absurd (List.mem_singleton.mpr rfl) hn
    | ⟨1, _⟩ => exact (D.lhsIdx_val_of_single hlc j _).trans hk)
  have er : D.rhsIdx j ((contrEquiv1 D K hr hs).symm k) = ix2 (n0 := N) (n1 := K) (j 1) k := funext fun a => Fin.ext (by
    match a with
    | ⟨0, _⟩ =>
      subst hD
      show (DotDims.rhsIdx _ j _ ⟨0, _⟩).val = (j 1).val
      unfold DotDims.rhsIdx
      split
      · rename_i hb; exact absurd hb List.not_mem_nil
      · split
        · rfl
        · rename_i hn; exact absurd (List.mem_singleton.mpr rfl) hn
    | ⟨1, _⟩ => exact (D.rhsIdx_val_of_single hrc j _).trans hk)
  exact congrArg₂ (· * ·) (congrArg l el) (congrArg r er)

end Cert.Layer.MatmulNT

end
-- ==== Proof.LibColumn.lean ====
/-
  Two layout operations read at an index given by coordinates: a vector made a one-column matrix, and a
  one-column matrix spread over the columns of a wider one.  Together they turn a per-row quantity (a scale,
  a mean, a variance) into a matrix that is constant along each row.
-/
import Idealize.ShloMosaic.Lib.ValueLayout

namespace Cert.Layer.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layer.Column
-- ==== Proof.KernelRow.lean ====
/-
  The kernel body's arithmetic, read index by index.

  From a block of 512 query rows `v0` ([1, 512, 256]) and the batch's 2048 key rows `v2` ([1, 2048, 256]) the body
  computes, for query row r:
    scores    sm[r, e] = ∑ d, v0[0, r, d] * v2[0, e, d]        (a product against the transposed key matrix)
    largest   mx[r]    = the maximum over e of sm[r, e], folded from minus infinity
    weights   pm[r, e] = exp (sm[r, e] - mx[r])
    total     lm[r]    = ∑ e, pm[r, e]
    weighted  cm[r, c] = ∑ e, pm[r, e] * v2[0, e, c]
    context   om[r, c] = cm[r, c] / lm[r]
  and stores the query rows unchanged beside the context rows.  So the first stored piece at (·, r, c) is
  v0[0, r, c], and the second is the weighted average (`Cert.Attn.avg`) of value column c under the scores of row r.
-/
import proofs.«164547_j48790828482616_2_alg».proof.Proof.Gen.KernelIdeal.Skeleton
import proofs.«164547_j48790828482616_2_alg».proof.Proof.Spec
import proofs.«164547_j48790828482616_2_alg».proof.Proof.LibMatmul
import proofs.«164547_j48790828482616_2_alg».proof.Proof.LibMatmulNT
import proofs.«164547_j48790828482616_2_alg».proof.Proof.LibColumn
import Idealize.ShloMosaic.Lib.ValueLayout
import Idealize.ShloMosaic.Lib.ValueIdx
import Idealize.ShloMosaic.PureOps.Ideal.Laws

noncomputable section

open scoped BigOperators

namespace Cert.Attn.Ker

open Cert.KernelIdeal Cert.KernelIdeal.Gen
open Idealize.ShloMosaic Idealize.ShloMosaic.ValueIdx Cert.Attn Cert.Layer.Softmax

variable (v0 : Vec Ideal S1x512x256 .f32) (v2 : Vec Ideal S1x2048x256 .f32)

/-- The query rows as a matrix. -/
def qm : FVec Ideal S512x256 .f32 := k0_pay1 v0
/-- The key rows as a matrix. -/
def km : FVec Ideal S2048x256 .f32 := shapeCast S2048x256 v2 shapeCasts_S1x2048x256_S2048x256
/-- The scores. -/
def sm : FVec Ideal S512x2048 .f32 :=
  matmul dot_S512x256_S2048x256_S512x2048_1_1_0_0_n_n (some .fp32) (qm v0) (km v2) (constant S512x2048 .f32 0x00000000#32)
/-- Each row's largest score. -/
def mx : FVec Ideal S512 .f32 :=
  multiReduction .maximumf [1] S512 (sm v0 v2) 0xFF800000#32 reduces_S512x2048_S512 (.inl rfl) rfl
/-- The weights. -/
def pm : FVec Ideal S512x2048 .f32 :=
  exp (subf (sm v0 v2) (broadcastTo S512x2048 (shapeCast S512x1 (mx v0 v2) shapeCasts_S512_S512x1) broadcasts_S512x1_S512x2048))
/-- Each row's total weight. -/
def lm : FVec Ideal S512 .f32 :=
  multiReduction .add [1] S512 (pm v0 v2) 0x00000000#32 reduces_S512x2048_S512 (.inl rfl) rfl
/-- The weighted sums of the value columns. -/
def cm : FVec Ideal S512x256 .f32 :=
  matmul dot_S512x2048_S2048x256_S512x256_1_0_0_1_n_n (some .fp32) (pm v0 v2) (km v2) (constant S512x256 .f32 0x00000000#32)
/-- The context rows. -/
def om : FVec Ideal S512x256 .f32 :=
  divf (cm v0 v2) (broadcastTo S512x256 (shapeCast S512x1 (lm v0 v2) shapeCasts_S512_S512x1) broadcasts_S512x1_S512x256)

/-- The second stored value is the context rows with a leading unit axis. -/
theorem pay3_eq : k0_pay3 v0 v2 = shapeCast S1x512x256 (om v0 v2) shapeCasts_S512x256_S1x512x256 := rfl

/-- The query row of a block. -/
abbrev qrow (r : Fin 512) : Fin 256 → EReal := fun d => v0 (ix3 (0 : Fin 1) r d)
/-- The key rows of a block. -/
abbrev krows : Fin 2048 → Fin 256 → EReal := fun e d => v2 (ix3 (0 : Fin 1) e d)

theorem qm_at (r : Fin 512) (d : Fin 256) : qm v0 (ix2 r d) = v0 (ix3 (0 : Fin 1) r d) := by
  unfold qm k0_pay1
  exact shapeCast_1ab_ab_apply v0 _ r d

theorem km_at (e : Fin 2048) (d : Fin 256) : km v2 (ix2 e d) = v2 (ix3 (0 : Fin 1) e d) := by
  unfold km
  exact shapeCast_1ab_ab_apply v2 _ e d

/-- A score is the dot product of a query row with a key row. -/
theorem sm_at (r : Fin 512) (e : Fin 2048) : sm v0 v2 (ix2 r e) = scores (qrow v0 r) (krows v2) e := by
  unfold sm
  refine (Ideal.matmul_constant_zero_apply _ _ (qm v0) (km v2) (ix2 r e)).trans ?_
  refine (Cert.Layer.MatmulNT.transposed_contr_sum dot_S512x256_S2048x256_S512x2048_1_1_0_0_n_n rfl rfl rfl rfl rfl rfl
    (qm v0) (km v2) (ix2 r e)).trans ?_
  show ∑ d : Fin 256, qm v0 (ix2 r d) * km v2 (ix2 e d) = _
  unfold scores
  exact Finset.sum_congr rfl fun d _ => by rw [qm_at, km_at]

/-- The scores of row r. -/
abbrev srow (r : Fin 512) : Fin 2048 → EReal := fun e => sm v0 v2 (ix2 r e)

theorem srow_eq (r : Fin 512) : srow v0 v2 r = scores (qrow v0 r) (krows v2) := funext fun e => sm_at v0 v2 r e

/-- The lane maximum from minus infinity is the row's largest score. -/
theorem mx_at (r : Fin 512) : mx v0 v2 (ix1 r) = top (srow v0 v2 r) := by
  unfold mx
  refine (Ideal.multiReduction_maximumf_single (sm v0 v2) 0xFF800000#32 reduces_S512x2048_S512 (.inl rfl) rfl (ix1 r)).trans ?_
  show (Finset.univ : Finset (Fin 2048)).fold max (Ideal.ofBits .f32 0xFF800000#32)
    (sm v0 v2 ∘ reduces_S512x2048_S512.lift (ix1 r)) = _
  rw [ofBits_neg_inf]
  unfold top
  refine congrArg (fun f => (Finset.univ : Finset (Fin 2048)).fold max (⊥ : EReal) f) (funext fun k => ?_)
  exact congrArg (sm v0 v2) (funext fun a => Fin.ext (by match a with | ⟨0, _⟩ => rfl | ⟨1, _⟩ => rfl))

/-- The row's largest score spread over the row. -/
theorem shift_at (r : Fin 512) (e : Fin 2048) :
    broadcastTo S512x2048 (shapeCast S512x1 (mx v0 v2) shapeCasts_S512_S512x1) broadcasts_S512x1_S512x2048 (ix2 r e)
      = top (srow v0 v2 r) :=
  (Cert.Layer.Column.broadcastTo_a1_ab_apply _ broadcasts_S512x1_S512x2048 r e).trans
    ((Cert.Layer.Column.shapeCast_a_a1_apply (mx v0 v2) shapeCasts_S512_S512x1 r (0 : Fin 1)).trans (mx_at v0 v2 r))

theorem pm_at (r : Fin 512) (e : Fin 2048) : pm v0 v2 (ix2 r e) = weight (srow v0 v2 r) e := by
  unfold pm
  show Ideal.exp (sm v0 v2 (ix2 r e)
    - broadcastTo S512x2048 (shapeCast S512x1 (mx v0 v2) shapeCasts_S512_S512x1) broadcasts_S512x1_S512x2048 (ix2 r e)) = _
  rw [shift_at]
  rfl

theorem lm_at (r : Fin 512) : lm v0 v2 (ix1 r) = mass (srow v0 v2 r) := by
  unfold lm
  refine (Ideal.multiReduction_add_single (pm v0 v2) 0x00000000#32 reduces_S512x2048_S512 (.inl rfl) rfl (ix1 r)).trans ?_
  show ∑ k : Fin 2048, pm v0 v2 (reduces_S512x2048_S512.lift (ix1 r) k) = _
  unfold mass
  refine Finset.sum_congr rfl fun k _ => ?_
  have ei : reduces_S512x2048_S512.lift (ix1 r) k = ix2 r k :=
    funext fun a => Fin.ext (by match a with | ⟨0, _⟩ => rfl | ⟨1, _⟩ => rfl)
  rw [ei, pm_at]

/-- The row's total weight spread over the row. -/
theorem total_at (r : Fin 512) (c : Fin 256) :
    broadcastTo S512x256 (shapeCast S512x1 (lm v0 v2) shapeCasts_S512_S512x1) broadcasts_S512x1_S512x256 (ix2 r c)
      = mass (srow v0 v2 r) :=
  (Cert.Layer.Column.broadcastTo_a1_ab_apply _ broadcasts_S512x1_S512x256 r c).trans
    ((Cert.Layer.Column.shapeCast_a_a1_apply (lm v0 v2) shapeCasts_S512_S512x1 r (0 : Fin 1)).trans (lm_at v0 v2 r))

theorem cm_at (r : Fin 512) (c : Fin 256) :
    cm v0 v2 (ix2 r c) = ∑ e : Fin 2048, weight (srow v0 v2 r) e * v2 (ix3 (0 : Fin 1) e c) := by
  unfold cm
  refine (Ideal.matmul_constant_zero_apply _ _ (pm v0 v2) (km v2) (ix2 r c)).trans ?_
  refine (Cert.Layer.Matmul.plain_contr_sum dot_S512x2048_S2048x256_S512x256_1_0_0_1_n_n rfl rfl rfl rfl rfl rfl
    (pm v0 v2) (km v2) (ix2 r c)).trans ?_
  show ∑ e : Fin 2048, pm v0 v2 (ix2 r e) * km v2 (ix2 e c) = _
  exact Finset.sum_congr rfl fun e _ => by rw [pm_at, km_at]

/-- A context entry is the weighted average of a value column under the row's scores. -/
theorem om_at (r : Fin 512) (c : Fin 256) :
    om v0 v2 (ix2 r c) = avg (scores (qrow v0 r) (krows v2)) (fun e => krows v2 e c) := by
  unfold om
  show Ideal.div (cm v0 v2 (ix2 r c))
    (broadcastTo S512x256 (shapeCast S512x1 (lm v0 v2) shapeCasts_S512_S512x1) broadcasts_S512x1_S512x256 (ix2 r c)) = _
  rw [cm_at, total_at, srow_eq]
  rfl

/-- The first stored piece: the query rows, unchanged. -/
theorem pay2_at (u : Fin 1) (r : Fin 512) (c : Fin 256) : k0_pay2 v0 (ix3 u r c) = v0 (ix3 (0 : Fin 1) r c) := by
  unfold k0_pay2
  exact (shapeCast_ab_1ab_apply (k0_pay1 v0) shapeCasts_S512x256_S1x512x256 u r c).trans (qm_at v0 r c)

/-- The second stored piece: the context rows. -/
theorem pay3_at (u : Fin 1) (r : Fin 512) (c : Fin 256) :
    k0_pay3 v0 v2 (ix3 u r c) = avg (scores (qrow v0 r) (krows v2)) (fun e => krows v2 e c) := by
  rw [pay3_eq]
  exact (shapeCast_ab_1ab_apply (om v0 v2) shapeCasts_S512x256_S1x512x256 u r c).trans (om_at v0 v2 r c)

end Cert.Attn.Ker

end
-- ==== Proof.Blocks.lean ====
/-
  From the kernel's blocks to its whole result array.

  The grid has 8 × 4 points (b, g).  At point (b, g) the kernel sees queries dec[b, 512 g .. 512 g + 511, ·] (one block
  of 512 rows), all 2048 key rows enc[b, ·, ·] of batch b, and writes rows 512 g .. 512 g + 511 of batch b of the
  result, all 512 columns.  The two stores of the body tile the output block by columns: columns 0..255 hold the
  query rows and columns 256..511 the context rows, so the buffer after the body is, at (·, r, c), `row` of query
  row r of the block and the key rows, at column c (`blockRow`).  Read through the windows' index maps this is the
  block at (b, g) of `result enc dec`; the 32 output blocks cover the result array, so the array ends at `result`.
-/
import proofs.«164547_j48790828482616_2_alg».proof.Proof.Gen.KernelIdeal.Value
import proofs.«164547_j48790828482616_2_alg».proof.Proof.KernelRow
import Idealize.ShloMosaic.Lib.Pipeline.Value
import Idealize.ShloMosaic.Lib.ValueIdx

set_option maxRecDepth 16384

noncomputable section

namespace Cert.Attn.Blocks

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl

/-! ## The output buffer after the body, as one function of the input blocks -/

/-- The output buffer at (·, r, c): row r of the block's queries against the key rows, at column c. -/
def blockRow (v0 : Vec Ideal S1x512x256 .f32) (v2 : Vec Ideal S1x2048x256 .f32) (y : S1x512x512.Idx) : EReal :=
  row (Ker.qrow v0 (y 1)) (Ker.krows v2) (y 2)

theorem blockRow_of (v0 : Vec Ideal S1x512x256 .f32) (v2 : Vec Ideal S1x2048x256 .f32) (y : S1x512x512.Idx)
    (r : Fin 512) (hr : (y 1).val = r.val) :
    blockRow v0 v2 y = row (Ker.qrow v0 r) (Ker.krows v2) (y 2) :=
  congrArg (fun r' : Fin 512 => row (Ker.qrow v0 r') (Ker.krows v2) (y 2)) (Fin.ext hr)

/-- The two stores leave `blockRow`: the store at column offset 0 holds the query rows (the left half of every
    row), the store at column offset 256 the context rows (the right half). -/
theorem out_block (v0 : Vec Ideal S1x512x256 .f32) (v2 : Vec Ideal S1x2048x256 .f32) (y : S1x512x512.Idx) :
    out0_2 v0 v2 y = blockRow v0 v2 y := by
  have e0 : View.ld v0 r0_0 = v0 := View.ld_unit_zero zeros3 _ v0
  have e1 : View.ld v2 r0_1 = v2 := View.ld_unit_zero zeros3 _ v2
  unfold out0_2
  rw [e0, e1]
  refine View.canon_apply_of_pieces (Val := Elt Ideal) (e := .f32) (blockRow v0 v2) _ ?_ y (cover0_2 _ _ y)
  intro p hp x
  rcases List.mem_cons.mp hp with rfl | hp
  · obtain ⟨u, r, c, rfl⟩ : ∃ (u : Fin 1) (r : Fin 512) (c : Fin 256), x = ix3 u r c := ⟨x 0, x 1, x 2, eq_ix3 x⟩
    refine (Ker.pay3_at v0 v2 u r c).trans ?_
    refine ((blockRow_of v0 v2 _ r ?_).trans (row_right _ _ _ c ?_)).symm
    · show 0 + 1 * r.val = r.val
      omega
    · show 256 + 1 * c.val = 256 + c.val
      omega
  · rcases List.mem_cons.mp hp with rfl | hp
    · obtain ⟨u, r, c, rfl⟩ : ∃ (u : Fin 1) (r : Fin 512) (c : Fin 256), x = ix3 u r c := ⟨x 0, x 1, x 2, eq_ix3 x⟩
      refine (Ker.pay2_at v0 u r c).trans ?_
      refine ((blockRow_of v0 v2 _ r ?_).trans (row_left _ _ _ c ?_)).symm
      · show 0 + 1 * r.val = r.val
        omega
      · show 0 + 1 * c.val = c.val
        omega
    · exact absurd hp List.not_mem_nil

/-! ## The windows' index maps -/

/-- The printed index maps, decided over the 32 grid points: the query window moves with the output window on the
    batch and row-block axes, the key window on the batch axis only, and every other block index is 0. -/
theorem index_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 7
    ∧ win0_2.index t (1 : Fin 3) ≤ 3 :=
  (by decide +kernel : ∀ t : Fin grid0.N, _)

/-- Every (batch, row block) is some point's output block. -/
theorem index_onto : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])

/-- The query block at a point, read off the query array. -/
theorem iblk0_apply (c : Dev nD) (t : Fin cfg0.N) (z : S1x512x256.Idx) :
    iblk m c 0 t z = V m c main_arg1 (((cfg0.win 0).blk t).view.emb z) := rfl

/-- The key block at a point, read off the key array. -/
theorem iblk1_apply (c : Dev nD) (t : Fin cfg0.N) (z : S1x2048x256.Idx) :
    iblk m c 1 t z = V m c main_arg0 (((cfg0.win 1).blk t).view.emb z) := rfl

/-! ## What a point writes back -/

/-- Point `t` writes back block `t` of `result` of the argument arrays. -/
theorem flushed_eq (c : Dev nD) (t : Fin cfg0.N) :
    (dats m 0 c).flushed 2 t
      = ((cfg0.win 2).blk t).view.read (Elt Ideal) (result (V m c main_arg0) (V m c main_arg1)) := by
  rw [Cert.KernelIdeal.Value.flushed2]
  obtain ⟨e0, e1, e2, e3, e4, e5, e6, e7, e8⟩ := index_facts t
  funext y
  show out0_2 (iblk m c 0 t) (iblk m c 1 t) y
    = result (V m c main_arg0) (V m c main_arg1) (((cfg0.win 2).blk t).view.emb y)
  refine (out_block (iblk m c 0 t) (iblk m c 1 t) y).trans ?_
  have hy0 : (y 0).val < 1 := (y 0).isLt
  have hy1 : (y 1).val < 512 := (y 1).isLt
  have hy2 : (y 2).val < 512 := (y 2).isLt
  have hq : Ker.qrow (iblk m c 0 t) (y 1)
      = fun d : Fin 256 => V m c main_arg1 (ix3 ((((cfg0.win 2).blk t).view.emb y) 0) ((((cfg0.win 2).blk t).view.emb y) 1) d) := by
    funext d
    show iblk m c 0 t (ix3 (0 : Fin 1) (y 1) d) = _
    rw [iblk0_apply]
    refine congrArg (V m c main_arg1) (funext fun a => Fin.ext ?_)
    match a with
    | ⟨0, _⟩ =>
      show win0_0.index t (0 : Fin 3) * 1 + 1 * 0 = win0_2.index t (0 : Fin 3) * 1 + 1 * (y 0).val
      omega
    | ⟨1, _⟩ =>
      show win0_0.index t (1 : Fin 3) * 512 + 1 * (y 1).val = win0_2.index t (1 : Fin 3) * 512 + 1 * (y 1).val
      omega
    | ⟨2, _⟩ =>
      show win0_0.index t (2 : Fin 3) * 256 + 1 * d.val = d.val
      omega
  have hk : Ker.krows (iblk m c 1 t)
      = fun (e : Fin 2048) (d : Fin 256) => V m c main_arg0 (ix3 ((((cfg0.win 2).blk t).view.emb y) 0) e d) := by
    funext e d
    show iblk m c 1 t (ix3 (0 : Fin 1) e d) = _
    rw [iblk1_apply]
    refine congrArg (V m c main_arg0) (funext fun a => Fin.ext ?_)
    match a with
    | ⟨0, _⟩ =>
      show win0_1.index t (0 : Fin 3) * 1 + 1 * 0 = win0_2.index t (0 : Fin 3) * 1 + 1 * (y 0).val
      omega
    | ⟨1, _⟩ =>
      show win0_1.index t (1 : Fin 3) * 2048 + 1 * e.val = e.val
      omega
    | ⟨2, _⟩ =>
      show win0_1.index t (2 : Fin 3) * 256 + 1 * d.val = d.val
      omega
  have hc : (y 2 : Fin 512) = (((cfg0.win 2).blk t).view.emb y) 2 := Fin.ext (by
    show (y 2).val = win0_2.index t (2 : Fin 3) * 512 + 1 * (y 2).val
    omega)
  unfold blockRow result resultAt
  rw [hq, hk]
  exact congrArg (row _ _) hc

/-! ## The cover, the array and the run -/

/-- An index of the result array is in point `t`'s output block iff each coordinate is in the block's range. -/
theorem mem_blk (t : Fin cfg0.N) (i : S8x2048x512.Idx) :
    i ∈ ((cfg0.win 2).blk t).view.set ↔ ∀ a : Fin 3, win0_2.index t a * S1x512x512.size a ≤ (i a).val
      ∧ (i a).val < win0_2.index t a * S1x512x512.size a + S1x512x512.size a := by
  show i ∈ ((View.whole main_v0).slice (win0_2.rect t)).set ↔ _
  rw [View.set_slice_whole, Rect.mem_set_unit]
  exact Iff.rfl

/-- Every index of the result array lies in the output block of the point at its batch and its row's block. -/
theorem cover (i : S8x2048x512.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 512 := (i 2).isLt
  obtain ⟨t, ht⟩ := index_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 512 ≤ (i 2).val ∧ (i 2).val < win0_2.index t (2 : Fin 3) * 512 + 512
    omega

/-- The result array after the run is `result` of the argument arrays. -/
theorem final (c : Dev nD) :
    (dats m 0 c).arrAt 2 cfg0.N
      = result (m ((c : Thread nD τ).loc main_arg0)) (m ((c : Thread nD τ).loc main_arg1)) :=
  (dats m 0 c).arrAt_eq_of_cover 2 (result (V m c main_arg0) (V m c main_arg1)) (fun t _ => flushed_eq m c t) cover

/-- The kernel's run with its result array named: `result` of the arguments, which end unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Attn.Blocks

end
-- ==== Proof.RefValue.lean ====
/-
  The reference program's result, read index by index.

  Its stages, at batch b, key position e, query position t:
    scores       v0[b, e, t] = ∑ d, enc[b, e, d] * dec[b, t, d]
    largest      v1[b, t]    = the maximum over e of v0[b, e, t], folded from minus infinity; v3 = max (-∞) v1 = v1
    weights      v7[b, e, t] = exp (v0[b, e, t] - v3[b, t])
    total        v8[b, t]    = 0 + ∑ e, v7[b, e, t]
    normalised   v11[b, e, t] = v7[b, e, t] / v8[b, t]
    context      v12[b, t, c] = ∑ e, v11[b, e, t] * enc[b, e, c]
    result       v13[b, t, ·] = dec[b, t, ·] followed by v12[b, t, ·]
  So row (b, t) of the result is `rowNormalised` of the query row dec[b, t, ·] and the key rows enc[b, ·, ·]; for
  finite arguments that is the specification's `row`.
-/
import proofs.«164547_j48790828482616_2_alg».proof.Proof.Gen.ReferenceIdeal.Read
import proofs.«164547_j48790828482616_2_alg».proof.Proof.Spec
import Idealize.ShloMosaic.Lib.Pipeline.Value
import Idealize.ShloMosaic.Lib.ValueIdx
import Idealize.ShloMosaic.PureOps.Ideal.Laws

noncomputable section

open scoped BigOperators

namespace Cert.Attn.Ref

open Cert.ReferenceIdeal Cert.ReferenceIdeal.Gen Cert.ReferenceIdeal.Read
open Idealize.ShloMosaic Idealize.ShloMosaic.ValueIdx Cert.Attn Cert.Layer.Softmax

variable (x0 x1 : (⟨S8x2048x256, .f32⟩ : BufTy).Contents (Elt Ideal))

/-- The scores of query position `t` against the key positions, as the reference computes them. -/
def sc (b : Fin 8) (t : Fin 2048) : Fin 2048 → EReal := fun e => val_main_v0 (F := Ideal) x0 x1 (ix3 b e t)

/-- A score is the dot product of key row e with query row t, the key's entry first. -/
theorem sc_eq (b : Fin 8) (t : Fin 2048) :
    sc x0 x1 b t = scoresKeyFirst (fun d => x1 (ix3 b t d)) (fun e d => x0 (ix3 b e d)) := by
  funext e
  unfold sc scoresKeyFirst
  rw [val_main_v0_apply]
  refine Finset.sum_congr rfl fun d _ => ?_
  have el : lidx_main_v0 (ix3 b e t) d = ix3 b e d :=
    funext fun a => Fin.ext (by match a with | ⟨0, _⟩ => rfl | ⟨1, _⟩ => rfl | ⟨2, _⟩ => rfl)
  have er : ridx_main_v0 (ix3 b e t) d = ix3 b t d :=
    funext fun a => Fin.ext (by match a with | ⟨0, _⟩ => rfl | ⟨1, _⟩ => rfl | ⟨2, _⟩ => rfl)
  rw [el, er]

/-- The reduce over the key axis, from minus infinity, is the largest score. -/
theorem largest_at (b : Fin 8) (t : Fin 2048) :
    val_main_v1 (F := Ideal) x0 x1 (ix2 b t) = top (sc x0 x1 b t) := by
  unfold val_main_v1 sc
  generalize val_main_v0 (F := Ideal) x0 x1 = y
  have hR : S8x2048x2048.Reduces [1] S8x2048 := by decide
  refine (Host.reduce_eq_fold_single (FloatOps.maximumf (F := Ideal) (φ := .f32)) y (val_main_cst (F := Ideal))
    reducesTo_S8x2048x2048_S8x2048_d1 hR h_S_ (ix2 b t)).trans ?_
  rw [val_main_cst_apply]
  show (Finset.univ : Finset (Fin 2048)).fold max (Ideal.ofBits .f32 0xFF800000#32) (y ∘ hR.lift (ix2 b t)) = _
  rw [ofBits_neg_inf]
  unfold top
  refine congrArg (fun f => (Finset.univ : Finset (Fin 2048)).fold max (⊥ : EReal) f) (funext fun k => ?_)
  exact congrArg y (funext fun a => Fin.ext (by match a with | ⟨0, _⟩ => rfl | ⟨1, _⟩ => rfl | ⟨2, _⟩ => rfl))

/-- The maximum with the broadcast minus infinity changes nothing. -/
theorem shift_at (b : Fin 8) (t : Fin 2048) :
    val_main_v3 (F := Ideal) x0 x1 (ix2 b t) = top (sc x0 x1 b t) := by
  rw [val_main_v3_apply, val_main_v2_apply, val_main_cst_0_apply, largest_at]
  show max (Ideal.ofBits .f32 0xFF800000#32) _ = _
  rw [ofBits_neg_inf]
  exact max_eq_right bot_le

/-- The weight of key position e. -/
theorem weight_at (b : Fin 8) (e t : Fin 2048) :
    val_main_v7 (F := Ideal) x0 x1 (ix3 b e t) = weight (sc x0 x1 b t) e := by
  rw [val_main_v7_apply, val_main_v6_apply, val_main_v5_apply, val_main_v4_apply]
  have ei : idx_main_v4 (idx_main_v5 (ix3 b e t)) = ix2 b t :=
    funext fun a => Fin.ext (by match a with | ⟨0, _⟩ => rfl | ⟨1, _⟩ => rfl)
  rw [ei, shift_at]
  rfl

/-- The total weight. -/
theorem total_at (b : Fin 8) (t : Fin 2048) :
    val_main_v8 (F := Ideal) x0 x1 (ix2 b t) = mass (sc x0 x1 b t) := by
  rw [val_main_v8_apply, val_main_cst_1_apply]
  show Ideal.ofBits .f32 0x00000000#32 + _ = _
  rw [Ideal.ofBits_zero_f32, zero_add]
  unfold mass
  refine Finset.sum_congr rfl fun k _ => ?_
  have ei : idx_main_v8 (ix2 b t) k = ix3 b k t :=
    funext fun a => Fin.ext (by match a with | ⟨0, _⟩ => rfl | ⟨1, _⟩ => rfl | ⟨2, _⟩ => rfl)
  rw [ei, weight_at]

/-- The normalised weight of key position e. -/
theorem normalised_at (b : Fin 8) (e t : Fin 2048) :
    val_main_v11 (F := Ideal) x0 x1 (ix3 b e t)
      = Ideal.div (weight (sc x0 x1 b t) e) (mass (sc x0 x1 b t)) := by
  rw [val_main_v11_apply, val_main_v10_apply, val_main_v9_apply]
  have ei : idx_main_v9 (idx_main_v10 (ix3 b e t)) = ix2 b t :=
    funext fun a => Fin.ext (by match a with | ⟨0, _⟩ => rfl | ⟨1, _⟩ => rfl)
  rw [ei, total_at, weight_at]
  rfl

/-- The context vector's entry c at query position t. -/
theorem context_at (b : Fin 8) (t : Fin 2048) (c : Fin 256) :
    val_main_v12 (F := Ideal) x0 x1 (ix3 b t c) = avgNormalised (sc x0 x1 b t) (fun e => x0 (ix3 b e c)) := by
  rw [val_main_v12_apply]
  unfold avgNormalised
  refine Finset.sum_congr rfl fun k _ => ?_
  have el : lidx_main_v12 (ix3 b t c) k = ix3 b k t :=
    funext fun a => Fin.ext (by match a with | ⟨0, _⟩ => rfl | ⟨1, _⟩ => rfl | ⟨2, _⟩ => rfl)
  have er : ridx_main_v12 (ix3 b t c) k = ix3 b k c :=
    funext fun a => Fin.ext (by match a with | ⟨0, _⟩ => rfl | ⟨1, _⟩ => rfl | ⟨2, _⟩ => rfl)
  rw [el, er, normalised_at]

/-- The first 256 entries of a result row are the query row. -/
theorem out_left (b : Fin 8) (t : Fin 2048) (c : Fin 512) (h : c.val < 256) :
    val_main_v13 (F := Ideal) x0 x1 (ix3 b t c) = x1 (ix3 b t ⟨c.val, h⟩) := by
  unfold val_main_v13
  generalize val_main_v12 (F := Ideal) x0 x1 = y
  exact concatenate_pair_apply_left 2 x1 y concatenates_S8x2048x256_S8x2048x256_S8x2048x512_d2 (ix3 b t c) rfl
    (ix3 b t ⟨c.val, h⟩) (fun a => by match a with | ⟨0, _⟩ => rfl | ⟨1, _⟩ => rfl | ⟨2, _⟩ => rfl)

/-- The last 256 entries are the context vector. -/
theorem out_right (b : Fin 8) (t : Fin 2048) (c : Fin 512) (h : ¬ c.val < 256) :
    val_main_v13 (F := Ideal) x0 x1 (ix3 b t c)
      = val_main_v12 (F := Ideal) x0 x1 (ix3 b t ⟨c.val - 256, by have := c.isLt; omega⟩) := by
  unfold val_main_v13
  generalize val_main_v12 (F := Ideal) x0 x1 = y
  refine concatenate_pair_apply_right 2 x1 y concatenates_S8x2048x256_S8x2048x256_S8x2048x512_d2 (ix3 b t c) rfl rfl
    (ix3 b t ⟨c.val - 256, by have := c.isLt; omega⟩) (fun a hne => ?_) ?_
  · match a with
    | ⟨0, _⟩ => rfl
    | ⟨1, _⟩ => rfl
    | ⟨2, _⟩ => exact absurd rfl hne
  · show c.val - 256 + 256 = c.val
    omega

/-- Row (b, t) of the reference's result is the normalised row of the query row and the batch's key rows. -/
theorem out_at (b : Fin 8) (t : Fin 2048) (c : Fin 512) :
    val_main_v13 (F := Ideal) x0 x1 (ix3 b t c)
      = rowNormalised (fun d => x1 (ix3 b t d)) (fun e d => x0 (ix3 b e d)) c := by
  unfold rowNormalised
  split
  · rename_i h; exact out_left x0 x1 b t c h
  · rename_i h
    rw [out_right x0 x1 b t c h, context_at, sc_eq]

/-- For finite arguments the reference's result is the specification. -/
theorem out_eq_result (hx0 : ∀ i, IsFin (x0 i)) (hx1 : ∀ i, IsFin (x1 i)) :
    val_main_v13 (F := Ideal) x0 x1 = result x0 x1 := by
  funext i
  obtain ⟨b, t, c, rfl⟩ : ∃ (b : Fin 8) (t : Fin 2048) (c : Fin 512), i = ix3 b t c := ⟨i 0, i 1, i 2, eq_ix3 i⟩
  rw [result_ix3, out_at]
  unfold resultAt
  exact (row_eq_rowNormalised _ _ (fun d => hx1 _) (fun e d => hx0 _) c).symm

end Cert.Attn.Ref

end
-- ==== Proof.Finite.lean ====
/-
  What the precondition says: every entry of both argument arrays is a real number.

  The precondition takes, for each argument array x, the conjunction over all entries of |x| < +∞, and then the
  conjunction of the two.  On the extended reals |x| = max x (-x) is +∞ exactly at the two infinities, so the
  comparison holds exactly at the reals.
-/
import proofs.«164547_j48790828482616_2_alg».proof.Pre_finite_inputs
import proofs.«164547_j48790828482616_2_alg».proof.Proof.Gen.Pre_finite_inputs
import proofs.«164547_j48790828482616_2_alg».proof.Proof.LibSoftmax
import Idealize.ShloMosaic.Lib.ReduceAll
import Idealize.ShloMosaic.Lib.ValueIdx
import Idealize.ShloMosaic.PureOps.Ideal

noncomputable section

namespace Cert.Attn.Finite

open Cert.Pre_finite_inputs Idealize.ShloMosaic Cert.Layer.Softmax

/-- The binary32 word of plus infinity denotes the top of the extended reals. -/
theorem ofBits_pos_inf : Ideal.ofBits .f32 0x7F800000#32 = (⊤ : EReal) := by
  simp [Ideal.ofBits, Ideal.ieee]

/-- An extended real whose absolute value is below plus infinity is a real. -/
theorem isFin_of_abs_lt (x : EReal)
    (h : Ideal.cmp .olt (max x (-x)) (Ideal.ofBits .f32 0x7F800000#32) = 1#1) : IsFin x := by
  rw [ofBits_pos_inf] at h
  induction x using EReal.rec with
  | bot => simp [Ideal.cmp] at h
  | top => simp [Ideal.cmp] at h
  | coe r => exact isFin_coe r

instance : Subsingleton S_.Idx := ⟨fun a b => funext fun d => d.elim0⟩

/-- If the precondition's function is all ones on two arrays, every entry of both is a real. -/
theorem finite_of_pre (a0 a1 : FVec Ideal S8x2048x256 .f32)
    (h : Cert.Pre_finite_inputs.fn (F := Ideal) a0 a1 = fun _ => 1#1) :
    (∀ i, IsFin (a0 i)) ∧ (∀ i, IsFin (a1 i)) := by
  have h0 := congrFun h ValueIdx.ix0
  dsimp only [Cert.Pre_finite_inputs.fn] at h0
  obtain ⟨h1, h2⟩ := IntOp.andi_eq_one.1 h0
  refine ⟨fun i => ?_, fun i => ?_⟩
  · exact isFin_of_abs_lt _ (Host.reduce_andi_all _ _ _ _ _ h1 i)
  · exact isFin_of_abs_lt _ (Host.reduce_andi_all _ _ _ _ _ h2 i)

end Cert.Attn.Finite

end
-- ==== Proof.lean ====
/-
  Dot-product attention with the queries passed through, computed block by block, equals the whole-array
  reference on the extended reals.

  Both programs take keys/values `enc` and queries `dec`, each 8 × 2048 × 256, and return 8 × 2048 × 512: row (b, t)
  is the query row dec[b, t, ·] followed by the softmax-weighted average of the rows enc[b, e, ·], the score of key
  position e being the dot product of dec[b, t, ·] with enc[b, e, ·] and the softmax shifted by the row's largest score.

  The kernel handles 512 query rows of one batch per grid point; it divides the weighted SUM of the value rows by the
  total weight.  The reference normalises every weight by the total weight first and then sums, takes each score
  product with the key's entry as the left factor, and takes one more maximum with minus infinity, which changes
  nothing.  The one law between the two that is not plain commutativity is that a quotient by the total weight
  distributes over the weighted sum; on the extended reals that needs every term finite, which is what the
  precondition gives: finite entries make the scores finite dot products, the weights positive reals and the total
  weight a positive real.

  `Cert.Attn.result` (Proof/Spec.lean) is the common value.  Proof/Blocks.lean shows the kernel's result array is
  `result` of its arguments (over Proof/KernelRow.lean, the body's arithmetic at an index), Proof/RefValue.lean
  that the reference's is for finite arguments, Proof/Finite.lean that the precondition makes them finite, and
  Proof/Attention.lean the law itself.
-/
import proofs.«164547_j48790828482616_2_alg».proof.Defs
import proofs.«164547_j48790828482616_2_alg».proof.Proof.Gen.Kernel
import proofs.«164547_j48790828482616_2_alg».proof.Proof.Gen.Kernel.Skeleton
import proofs.«164547_j48790828482616_2_alg».proof.Proof.Gen.Kernel.Launch
import proofs.«164547_j48790828482616_2_alg».proof.Proof.Gen.Kernel.Points
import proofs.«164547_j48790828482616_2_alg».proof.Proof.Gen.Kernel.Frame
import proofs.«164547_j48790828482616_2_alg».proof.Proof.Gen.KernelIdeal
import proofs.«164547_j48790828482616_2_alg».proof.Proof.Gen.KernelIdeal.Skeleton
import proofs.«164547_j48790828482616_2_alg».proof.Proof.Gen.KernelIdeal.Launch
import proofs.«164547_j48790828482616_2_alg».proof.Proof.Gen.KernelIdeal.Points
import proofs.«164547_j48790828482616_2_alg».proof.Proof.Gen.KernelIdeal.Frame
import proofs.«164547_j48790828482616_2_alg».proof.Proof.Gen.ReferenceIdeal
import proofs.«164547_j48790828482616_2_alg».proof.Proof.Gen.Pre_finite_inputs
import proofs.«164547_j48790828482616_2_alg».proof.Proof.Gen.KernelIdeal.Value
import proofs.«164547_j48790828482616_2_alg».proof.Proof.Gen.ReferenceIdeal.Run
import proofs.«164547_j48790828482616_2_alg».proof.Proof.Gen.ReferenceIdeal.Read
import proofs.«164547_j48790828482616_2_alg».proof.Proof.Blocks
import proofs.«164547_j48790828482616_2_alg».proof.Proof.RefValue
import proofs.«164547_j48790828482616_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with `result` of the arguments: the kernel by its
    blocks, the reference stage by stage, for the finite entries the precondition provides. -/
theorem algebraic : Cert.algebraic_KernelIdeal_ReferenceIdeal := by
  intro m ρ m' ρ' hpre hagree
  refine ⟨fun c => Cert.Attn.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Attn.Blocks.run m ρ, ?_⟩
  refine (θ_run Cert.ReferenceIdeal.defs _ _).mono (fun _ h c => ⟨?_, (h c).2⟩)
    (Cert.ReferenceIdeal.Value.run (F := Ideal) m' ρ')
  obtain ⟨hf0, hf1⟩ := Cert.Attn.Finite.finite_of_pre _ _ (hpre c)
  refine ((h c).1.trans (Cert.ReferenceIdeal.Read.val_main_v13_eq _ _)).trans ?_
  rw [(hagree c).1, (hagree c).2]
  exact Cert.Attn.Ref.out_eq_result _ _ hf0 hf1

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
